-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x640000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S50000, .f32⟩
  | .hbm, ⟨13, _⟩ => ⟨S640000x1, .i32⟩
  | .hbm, ⟨14, _⟩ => ⟨S50000, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S50000x128, .f32⟩
  | .hbm, ⟨26, _⟩ => ⟨S640000x1, .i32⟩
  | .hbm, ⟨27, _⟩ => ⟨S50000x128, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S50000x128, .f32⟩
  | .hbm, ⟨47, _⟩ => ⟨S640000x1, .i32⟩
  | .hbm, ⟨48, _⟩ => ⟨S50000x128, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S50000, .f32⟩
  | .hbm, ⟨26, _⟩ => ⟨S640000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S1x640000, .i32⟩
  | .hbm, ⟨46, _⟩ => ⟨S640000, .i32⟩
  | .hbm, ⟨47, _⟩ => ⟨S1x640000, .i32⟩
  | .hbm, ⟨48, _⟩ => ⟨S640000, .i32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S50000x128, .f32⟩
  | .hbm, ⟨60, _⟩ => ⟨S640000x1, .i32⟩
  | .hbm, ⟨61, _⟩ => ⟨S50000x128, .f32⟩
  | .hbm, ⟨62, _⟩ => ⟨S_, .f32⟩
  | .hbm, ⟨63, _⟩ => ⟨S640000, .f32⟩
  | .hbm, ⟨64, _⟩ => ⟨S_, .f32⟩
  | .hbm, ⟨65, _⟩ => ⟨S50000, .f32⟩
  | .hbm, ⟨66, _⟩ => ⟨S640000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
import proofs.«175115_j60430189854726_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its result named: every weakly fair execution of @main terminates without a fault, the
    result buffer holds what the second pallas_call's write-backs leave in its output array (the last boundary's
    contents at that buffer), and the five argument arrays are as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.Spec.lean ====
import Idealize.ShloMosaic.PureOps.Ideal
import Idealize.ShloMosaic.Lib.ValueIdx

noncomputable section

open scoped BigOperators

namespace Cert.Sage

open Idealize.ShloMosaic Idealize.ShloMosaic.ValueIdx

/-- One entry of a node-wise linear combine over a feature axis of extent 128: the neighbour mean's row `A` against a
    row `WL` of the first weight matrix, plus the node's own row `X` against a row `WR` of the second, plus the bias
    entry `b`, the two dot products added first. -/
def row (A X WL WR : Fin 128 → EReal) (b : EReal) : EReal :=
  ((∑ k : Fin 128, A k * WL k) + (∑ k : Fin 128, X k * WR k)) + b

/-- Adding the bias before the second dot product gives the same entry: addition of extended reals is commutative and
    associative at every value, the infinities included, so no finiteness is used. -/
theorem row_bias_first (A X WL WR : Fin 128 → EReal) (b : EReal) :
    ((∑ k : Fin 128, A k * WL k) + b) + (∑ k : Fin 128, X k * WR k) = row A X WL WR b := by
  unfold row
  exact add_right_comm _ _ _

/-- The combine over all 50000 nodes: entry `(r, q)` is `a[r, :] · wl[q, :] + x[r, :] · wr[q, :] + bl[q]`
    (each weight matrix enters transposed). -/
def combine (a x : (⟨2, ![50000, 128]⟩ : Shape).Idx → EReal) (wl wr : (⟨2, ![128, 128]⟩ : Shape).Idx → EReal)
    (bl : (⟨1, ![128]⟩ : Shape).Idx → EReal) : (⟨2, ![50000, 128]⟩ : Shape).Idx → EReal :=
  fun i => row (fun k => a (ix2 (i 0) k)) (fun k => x (ix2 (i 0) k)) (fun k => wl (ix2 (i 1) k)) (fun k => wr (ix2 (i 1) k)) (bl (ix1 (i 1)))

/-- The same followed by the rectifier: every entry clamped below at zero. -/
def combineRelu (a x : (⟨2, ![50000, 128]⟩ : Shape).Idx → EReal) (wl wr : (⟨2, ![128, 128]⟩ : Shape).Idx → EReal)
    (bl : (⟨1, ![128]⟩ : Shape).Idx → EReal) : (⟨2, ![50000, 128]⟩ : Shape).Idx → EReal :=
  fun i => max (combine a x wl wr bl i) 0

end Cert.Sage

end
-- ==== Proof.KernelPoint.lean ====
import proofs.«175115_j60430189854726_1_alg».proof.Proof.Gen.KernelIdeal.Skeleton
import proofs.«175115_j60430189854726_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Point

open Cert.KernelIdeal Cert.KernelIdeal.Gen Idealize.ShloMosaic Idealize.ShloMosaic.ValueIdx Cert.Sage

/-- The matrix product's dimension numbers: a [5000, 128] block against a [128, 128] matrix, contracting the block's
    second axis with the matrix's first. -/
abbrev mm := dot_S5000x128_S128x128_S5000x128_1_0_0_1_n_n

theorem lhs_row (i : S5000x128.Idx) (q : mm.contr.Idx) : (mm.lhsIdx i q 0).val = (i 0).val := by
  unfold DotDims.lhsIdx
  rw [dif_neg (show ¬(0 : Fin S5000x128.rank) ∈ mm.lhsBatch by decide), dif_pos (show (0 : Fin S5000x128.rank) ∈ mm.lhsNonContracting by decide)]
  rfl
theorem lhs_contr (i : S5000x128.Idx) (q : mm.contr.Idx) : (mm.lhsIdx i q 1).val = (q ⟨0, by decide⟩).val :=
  mm.lhsIdx_val_of_single rfl i q
theorem rhs_contr (i : S5000x128.Idx) (q : mm.contr.Idx) : (mm.rhsIdx i q 0).val = (q ⟨0, by decide⟩).val :=
  mm.rhsIdx_val_of_single rfl i q
theorem rhs_col (i : S5000x128.Idx) (q : mm.contr.Idx) : (mm.rhsIdx i q 1).val = (i 1).val := by
  unfold DotDims.rhsIdx
  rw [dif_neg (show ¬(1 : Fin S128x128.rank) ∈ mm.rhsBatch by decide), dif_pos (show (1 : Fin S128x128.rank) ∈ mm.rhsNonContracting by decide)]
  rfl

/-- The product of a block with a matrix, accumulated into zero, at row `p` and column `q`: the sum over the shared
    axis of the block's row `p` against the matrix's column `q`. -/
theorem matmul_at (l : FVec Ideal S5000x128 .bf16) (r : FVec Ideal S128x128 .bf16) (p : Fin 5000) (q : Fin 128) :
    matmul mm none l r (constant S5000x128 .f32 0x00000000#32) (ix2 p q) = ∑ k : Fin 128, l (ix2 p k) * r (ix2 k q) := by
  simp only [matmul]
  rw [Ideal.matmul_constant_zero_apply, ← Equiv.sum_comp (contrEquiv1 mm 128 rfl rfl).symm]
  refine Finset.sum_congr rfl fun k _ => ?_
  have hk := contrEquiv1_symm_val mm 128 rfl rfl k
  have el : mm.lhsIdx (ix2 p q) ((contrEquiv1 mm 128 rfl rfl).symm k) = ix2 p k := funext fun a => Fin.ext (by
    match a with
    | ⟨0, _⟩ => exact lhs_row _ _
    | ⟨1, _⟩ => exact (lhs_contr _ _).trans hk)
  have er : mm.rhsIdx (ix2 p q) ((contrEquiv1 mm 128 rfl rfl).symm k) = ix2 k q := funext fun a => Fin.ext (by
    match a with
    | ⟨0, _⟩ => exact (rhs_contr _ _).trans hk
    | ⟨1, _⟩ => exact rhs_col _ _)
  rw [el, er]

/-- The block times a TRANSPOSED weight matrix, at `(p, q)`: row `p` of the block against ROW `q` of the weights
    (the narrowing to sixteen bits on the way in is the identity on extended reals). -/
theorem dot_rows (x : FVec Ideal S5000x128 .f32) (w : FVec Ideal S128x128 .f32) (p : Fin 5000) (q : Fin 128) :
    matmul mm none (truncf .bf16 x bitsLt_bf16_f32) (transpose S128x128 [1, 0] (truncf .bf16 w bitsLt_bf16_f32) transposes_S128x128_p1_0_S128x128)
        (constant S5000x128 .f32 0x00000000#32) (ix2 p q)
      = ∑ k : Fin 128, x (ix2 p k) * w (ix2 q k) := by
  refine (matmul_at _ _ p q).trans ?_
  refine Finset.sum_congr rfl fun k _ => ?_
  refine congrArg (x (ix2 p k) * ·) ?_
  exact transpose_ix2_apply (truncf (F := Ideal) .bf16 w bitsLt_bf16_f32) transposes_S128x128_p1_0_S128x128 k q

/-- The first call's stored value at row `p`, column `q` of its block: the combine's entry, clamped below at zero. -/
theorem pay0_at (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = max (row (fun k => x0 (ix2 p k)) (fun k => x1 (ix2 p k)) (fun k => x2 (ix2 q k)) (fun k => x3 (ix2 q k)) (x4 (ix2 (0 : Fin 1) q))) 0 := by
  unfold k0_pay1 row
  show max ((matmul mm none (truncf .bf16 (shapeCast S5000x128 x0 shapeCasts_S5000x128_S5000x128) bitsLt_bf16_f32) _ _ (ix2 p q)
        + matmul mm none (truncf .bf16 x1 bitsLt_bf16_f32) _ _ (ix2 p q))
      + broadcastTo S5000x128 (shapeCast S1x128 x4 shapeCasts_S1x128_S1x128) broadcasts_S1x128_S5000x128 (ix2 p q))
      (Ideal.ofBits .f32 0x00000000#32) = _
  rw [shapeCast_self, shapeCast_self, Ideal.ofBits_zero_f32, dot_rows, dot_rows]
  exact congrArg (fun b => max (_ + b) 0) (broadcastTo_1b_ab_apply x4 broadcasts_S1x128_S5000x128 p q)

/-- The second call's stored value at row `p`, column `q` of its block: the combine's entry, not clamped. -/
theorem pay1_at (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q)
      = row (fun k => x0 (ix2 p k)) (fun k => x1 (ix2 p k)) (fun k => x2 (ix2 q k)) (fun k => x3 (ix2 q k)) (x4 (ix2 (0 : Fin 1) q)) := by
  unfold k1_pay1 row
  show (matmul mm none (truncf .bf16 (shapeCast S5000x128 x0 shapeCasts_S5000x128_S5000x128) bitsLt_bf16_f32) _ _ (ix2 p q)
        + matmul mm none (truncf .bf16 (shapeCast S5000x128 x1 shapeCasts_S5000x128_S5000x128) bitsLt_bf16_f32) _ _ (ix2 p q))
      + broadcastTo S5000x128 (shapeCast S1x128 x4 shapeCasts_S1x128_S1x128) broadcasts_S1x128_S5000x128 (ix2 p q) = _
  rw [shapeCast_self, shapeCast_self, shapeCast_self, dot_rows, dot_rows]
  exact congrArg (fun b => _ + b) (broadcastTo_1b_ab_apply x4 broadcasts_S1x128_S5000x128 p q)

end Cert.KernelIdeal.Point

end
-- ==== Proof.KernelArray.lean ====
import proofs.«175115_j60430189854726_1_alg».proof.Proof.Gen.KernelIdeal.Frame
import proofs.«175115_j60430189854726_1_alg».proof.Proof.KernelPoint

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx Cert.Sage
open Idealize.SL.Sem
open Idealize.ShloMosaic.Pipeline (Dat Cfg Window)

theorem hz : (![0, 0] : Fin 2 → Nat) = fun _ => 0 := funext fun a => by fin_cases a <;> rfl

/-- Call 0's stored value at an index `y` of the block, from what the five loaded blocks hold along row `y 0` and weight
    rows `y 1`. -/
theorem pay0_of (x0 x1 : FVec Ideal S5000x128 .f32) (x2 x3 : FVec Ideal S128x128 .f32) (x4 : FVec Ideal S1x128 .f32)
    (y : S5000x128.Idx) (A X WL WR : Fin 128 → EReal) (b : EReal)
    (hA : ∀ k, x0 (ix2 (y 0) k) = A k) (hX : ∀ k, x1 (ix2 (y 0) k) = X k) (hL : ∀ k, x2 (ix2 (y 1) k) = WL k)
    (hR : ∀ k, x3 (ix2 (y 1) k) = WR k) (hb : x4 (ix2 (0 : Fin 1) (y 1)) = b) :
    k0_pay1 (F := Ideal) x0 x1 x2 x3 x4 y = max (row A X WL WR b) 0 := by
  have hA' : (fun k => x0 (ix2 (y 0) k)) = A := funext hA
  have hX' : (fun k => x1 (ix2 (y 0) k)) = X := funext hX
  have hL' : (fun k => x2 (ix2 (y 1) k)) = WL := funext hL
  have hR' : (fun k => x3 (ix2 (y 1) k)) = WR := funext hR
  refine (congrArg (k0_pay1 (F := Ideal) x0 x1 x2 x3 x4) (eq_ix2 y)).trans ((Point.pay0_at x0 x1 x2 x3 x4 (y 0) (y 1)).trans ?_)
  rw [hA', hX', hL', hR', hb]

/-- Call 1's stored value at an index `y` of the block, from what the five loaded blocks hold along row `y 0` and weight
    rows `y 1`. -/
theorem pay1_of (x0 x1 : FVec Ideal S5000x128 .f32) (x2 x3 : FVec Ideal S128x128 .f32) (x4 : FVec Ideal S1x128 .f32)
    (y : S5000x128.Idx) (A X WL WR : Fin 128 → EReal) (b : EReal)
    (hA : ∀ k, x0 (ix2 (y 0) k) = A k) (hX : ∀ k, x1 (ix2 (y 0) k) = X k) (hL : ∀ k, x2 (ix2 (y 1) k) = WL k)
    (hR : ∀ k, x3 (ix2 (y 1) k) = WR k) (hb : x4 (ix2 (0 : Fin 1) (y 1)) = b) :
    k1_pay1 (F := Ideal) x0 x1 x2 x3 x4 y = row A X WL WR b := by
  have hA' : (fun k => x0 (ix2 (y 0) k)) = A := funext hA
  have hX' : (fun k => x1 (ix2 (y 0) k)) = X := funext hX
  have hL' : (fun k => x2 (ix2 (y 1) k)) = WL := funext hL
  have hR' : (fun k => x3 (ix2 (y 1) k)) = WR := funext hR
  refine (congrArg (k1_pay1 (F := Ideal) x0 x1 x2 x3 x4) (eq_ix2 y)).trans ((Point.pay1_at x0 x1 x2 x3 x4 (y 0) (y 1)).trans ?_)
  rw [hA', hX', hL', hR', hb]

/-! ## Call 0: what its output array holds when the call returns -/

/-- Call 0's output array as one function of the arrays the call finds (`V`): entry `(r, q)` is the combine of row `r`
    of the neighbour mean and of the node features against rows `q` of the two weight matrices, plus bias entry `q`, clamped below at zero. -/
def whole0 (V : (c : Dev nD) → (b : Ref sig .tc) → Buf (Elt Ideal) ((c : Thread nD τ).loc b)) (c : Dev nD) :
    S50000x128.Idx → EReal :=
  fun i => max (row (fun k => V c main_v22 (ix2 (i 0) k)) (fun k => V c main_arg0 (ix2 (i 0) k)) (fun k => V c main_arg2 (ix2 (i 1) k)) (fun k => V c main_arg4 (ix2 (i 1) k)) (V c main_v23 (ix2 (0 : Fin 1) (i 1)))) 0

/-- The index maps over the ten grid points: the two row-blocked inputs move with the output along the rows, every
    window sits at column block 0, the weights and the bias stay at block (0, 0), and the output's row block is the
    point's number. -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of that one function. -/
theorem flushed0 (V : (c : Dev nD) → (b : Ref sig .tc) → Buf (Elt Ideal) ((c : Thread nD τ).loc b)) (c : Dev nD) (t : Fin cfg0.N) :
    (dat0 V c).flushed 5 t = ((cfg0.win 5).blk t).view.read (Elt Ideal) (whole0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts0 t
  funext j
  show k0_pay1 (F := Ideal) (iblk0 V c 0 t) (iblk0 V c 1 t) (iblk0 V c 2 t) (iblk0 V c 3 t) (iblk0 V c 4 t) j
    = max (row (fun k => V c main_v22 (ix2 ((((cfg0.win 5).blk t).view.emb j) 0) k)) (fun k => V c main_arg0 (ix2 ((((cfg0.win 5).blk t).view.emb j) 0) k)) (fun k => V c main_arg2 (ix2 ((((cfg0.win 5).blk t).view.emb j) 1) k)) (fun k => V c main_arg4 (ix2 ((((cfg0.win 5).blk t).view.emb j) 1) k)) (V c main_v23 (ix2 (0 : Fin 1) ((((cfg0.win 5).blk t).view.emb j) 1)))) 0
  refine pay0_of _ _ _ _ _ j _ _ _ _ _ (fun k => ?_) (fun k => ?_) (fun k => ?_) (fun k => ?_) ?_
  · show V c main_v22 (((cfg0.win 0).blk t).view.emb (ix2 (j 0) k)) = _
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_arg0 (((cfg0.win 1).blk t).view.emb (ix2 (j 0) k)) = _
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_arg2 (((cfg0.win 2).blk t).view.emb (ix2 (j 1) k)) = _
    refine congrArg (V c main_arg2) (funext fun a => Fin.ext ?_)
    match a with
    | ⟨0, _⟩ => show win0_2.index t (0 : Fin 2) * 128 + 1 * (j 1).val = win0_5.index t (1 : Fin 2) * 128 + 1 * (j 1).val; omega
    | ⟨1, _⟩ => show win0_2.index t (1 : Fin 2) * 128 + 1 * k.val = k.val; omega
  · show V c main_arg4 (((cfg0.win 3).blk t).view.emb (ix2 (j 1) k)) = _
    refine congrArg (V c main_arg4) (funext fun a => Fin.ext ?_)
    match a with
    | ⟨0, _⟩ => show win0_3.index t (0 : Fin 2) * 128 + 1 * (j 1).val = win0_5.index t (1 : Fin 2) * 128 + 1 * (j 1).val; omega
    | ⟨1, _⟩ => show win0_3.index t (1 : Fin 2) * 128 + 1 * k.val = k.val; omega
  · show V c main_v23 (((cfg0.win 4).blk t).view.emb (ix2 (0 : Fin 1) (j 1))) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array lies in point `t`'s block exactly when each coordinate lies in the block's range. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The ten blocks of 5000 rows tile the 50000 rows: row `r` is in the block of the point whose row block is `r / 5000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- So when call 0 returns its output array IS that function of the arrays it found. -/
theorem array0 (V : (c : Dev nD) → (b : Ref sig .tc) → Buf (Elt Ideal) ((c : Thread nD τ).loc b)) (c : Dev nD) :
    (dat0 V c).arrAt 5 cfg0.N = whole0 V c :=
  (dat0 V c).arrAt_eq_of_cover 5 (whole0 V c) (fun t _ => flushed0 V c t) cover0

/-! ## Call 1: what its output array holds when the call returns -/

/-- Call 1's output array as one function of the arrays the call finds (`V`): entry `(r, q)` is the combine of row `r`
    of the neighbour mean and of the node features against rows `q` of the two weight matrices, plus bias entry `q`. -/
def whole1 (V : (c : Dev nD) → (b : Ref sig .tc) → Buf (Elt Ideal) ((c : Thread nD τ).loc b)) (c : Dev nD) :
    S50000x128.Idx → EReal :=
  fun i => row (fun k => V c main_v39 (ix2 (i 0) k)) (fun k => V c main_v24 (ix2 (i 0) k)) (fun k => V c main_arg2 (ix2 (i 1) k)) (fun k => V c main_arg4 (ix2 (i 1) k)) (V c main_v40 (ix2 (0 : Fin 1) (i 1)))

/-- The index maps over the ten grid points: the two row-blocked inputs move with the output along the rows, every
    window sits at column block 0, the weights and the bias stay at block (0, 0), and the output's row block is the
    point's number. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of that one function. -/
theorem flushed1 (V : (c : Dev nD) → (b : Ref sig .tc) → Buf (Elt Ideal) ((c : Thread nD τ).loc b)) (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts1 t
  funext j
  show k1_pay1 (F := Ideal) (iblk1 V c 0 t) (iblk1 V c 1 t) (iblk1 V c 2 t) (iblk1 V c 3 t) (iblk1 V c 4 t) j
    = row (fun k => V c main_v39 (ix2 ((((cfg1.win 5).blk t).view.emb j) 0) k)) (fun k => V c main_v24 (ix2 ((((cfg1.win 5).blk t).view.emb j) 0) k)) (fun k => V c main_arg2 (ix2 ((((cfg1.win 5).blk t).view.emb j) 1) k)) (fun k => V c main_arg4 (ix2 ((((cfg1.win 5).blk t).view.emb j) 1) k)) (V c main_v40 (ix2 (0 : Fin 1) ((((cfg1.win 5).blk t).view.emb j) 1)))
  refine pay1_of _ _ _ _ _ j _ _ _ _ _ (fun k => ?_) (fun k => ?_) (fun k => ?_) (fun k => ?_) ?_
  · show V c main_v39 (((cfg1.win 0).blk t).view.emb (ix2 (j 0) k)) = _
    refine congrArg (V c main_v39) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v24 (((cfg1.win 1).blk t).view.emb (ix2 (j 0) k)) = _
    refine congrArg (V c main_v24) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_arg2 (((cfg1.win 2).blk t).view.emb (ix2 (j 1) k)) = _
    refine congrArg (V c main_arg2) (funext fun a => Fin.ext ?_)
    match a with
    | ⟨0, _⟩ => show win1_2.index t (0 : Fin 2) * 128 + 1 * (j 1).val = win1_5.index t (1 : Fin 2) * 128 + 1 * (j 1).val; omega
    | ⟨1, _⟩ => show win1_2.index t (1 : Fin 2) * 128 + 1 * k.val = k.val; omega
  · show V c main_arg4 (((cfg1.win 3).blk t).view.emb (ix2 (j 1) k)) = _
    refine congrArg (V c main_arg4) (funext fun a => Fin.ext ?_)
    match a with
    | ⟨0, _⟩ => show win1_3.index t (0 : Fin 2) * 128 + 1 * (j 1).val = win1_5.index t (1 : Fin 2) * 128 + 1 * (j 1).val; omega
    | ⟨1, _⟩ => show win1_3.index t (1 : Fin 2) * 128 + 1 * k.val = k.val; omega
  · show V c main_v40 (((cfg1.win 4).blk t).view.emb (ix2 (0 : Fin 1) (j 1))) = _
    refine congrArg (V c main_v40) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the output array lies in point `t`'s block exactly when each coordinate lies in the block's range. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The ten blocks of 5000 rows tile the 50000 rows: row `r` is in the block of the point whose row block is `r / 5000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- So when call 1 returns its output array IS that function of the arrays it found. -/
theorem array1 (V : (c : Dev nD) → (b : Ref sig .tc) → Buf (Elt Ideal) ((c : Thread nD τ).loc b)) (c : Dev nD) :
    (dat1 V c).arrAt 5 cfg1.N = whole1 V c :=
  (dat1 V c).arrAt_eq_of_cover 5 (whole1 V c) (fun t _ => flushed1 V c t) cover1

end Cert.KernelIdeal.Whole

end
-- ==== Proof.KernelHost.lean ====
import proofs.«175115_j60430189854726_1_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo

/-! ## The message-passing step between the calls, as functions of the arrays

Both programs apply the same host operations around the linear combine: the edge list's two rows, each node's in-degree
(a scatter-add of ones at the destinations), and the mean over incoming edges (gather the source rows, scatter-add them
at the destinations, divide by the degree clamped below at one). Only their being the same functions in both programs
is used; what a gather or a scatter-add computes never enters. -/

/-- The edge list's source row, as a flat vector. -/
def srcOf (e : (⟨S2x640000, .i32⟩ : BufTy).Contents (Elt Ideal)) : (⟨S640000, .i32⟩ : BufTy).Contents (Elt Ideal) :=
  shapeCast _ (extractStridedSlice S1x640000 ![0, 0] e slices_S2x640000_S1x640000_0_0) shapeCasts_S1x640000_S640000

/-- The edge list's destination row, as a flat vector. -/
def dstOf (e : (⟨S2x640000, .i32⟩ : BufTy).Contents (Elt Ideal)) : (⟨S640000, .i32⟩ : BufTy).Contents (Elt Ideal) :=
  shapeCast _ (extractStridedSlice S1x640000 ![1, 0] e slices_S2x640000_S1x640000_1_0) shapeCasts_S1x640000_S640000

/-- Each node's in-degree: ones scatter-added at the destinations. -/
def degOf (d : (⟨S640000, .i32⟩ : BufTy).Contents (Elt Ideal)) : (⟨S50000, .f32⟩ : BufTy).Contents (Elt Ideal) :=
  Host.scatterAdd (F := Ideal) scatter_S50000_S640000x1_S640000_n_0_0_1
    (broadcastInDim S50000 ![] bcast_S_S50000 (constant (F := Ideal) S_ .f32 0x00000000#32))
    (broadcastInDim S640000x1 ![0] bcast_S640000_S640000x1_0 d)
    (broadcastInDim S640000 ![] bcast_S_S640000 (constant (F := Ideal) S_ .f32 0x3F800000#32))

/-- The mean of `h`'s rows over each node's incoming edges: source rows gathered (a negative source index wrapped by the
    node count), scatter-added at the destinations, divided by the degree `n` clamped below at one. -/
def meanOf (h : (⟨S50000x128, .f32⟩ : BufTy).Contents (Elt Ideal)) (s d : (⟨S640000, .i32⟩ : BufTy).Contents (Elt Ideal))
    (n : (⟨S50000, .f32⟩ : BufTy).Contents (Elt Ideal)) : (⟨S50000x128, .f32⟩ : BufTy).Contents (Elt Ideal) :=
  Host.divf (F := Ideal)
    (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 d)
      (Host.gather gather_S50000x128_S640000x1_S640000x128_1_0_n_n_0_1_1128 h
        (broadcastInDim S640000x1 ![0] bcast_S640000_S640000x1_0
          (select (cmpi .slt s (broadcastInDim S640000 ![] bcast_S_S640000 (constantI S_ 32 0#32)))
            (addi s (broadcastInDim S640000 ![] bcast_S_S640000 (constantI S_ 32 50000#32))) s))))
    (broadcastInDim S50000x128 ![0, 1] bcast_S50000x1_S50000x128_0_1
      (broadcastInDim S50000x1 ![0] bcast_S50000_S50000x1_0
        (maximumf (F := Ideal) n (broadcastInDim S50000 ![] bcast_S_S50000 (constant (F := Ideal) S_ .f32 0x3F800000#32)))))

/-! ## The host operations before the first call, read at the buffers the calls use -/

section First
variable (W : Valuation τ sig (Elt Ideal))

theorem first_src : after (hostOps0 (F := Ideal)) W (Proc.devRef .tc main_v1) = srcOf (W (Proc.devRef .tc main_arg1)) := by
  after_results_simp; rfl
theorem first_dst : after (hostOps0 (F := Ideal)) W (Proc.devRef .tc main_v3) = dstOf (W (Proc.devRef .tc main_arg1)) := by
  after_results_simp; rfl
theorem first_deg : after (hostOps0 (F := Ideal)) W (Proc.devRef .tc main_v7) = degOf (dstOf (W (Proc.devRef .tc main_arg1))) := by
  after_results_simp; rfl
theorem first_mean : after (hostOps0 (F := Ideal)) W (Proc.devRef .tc main_v22)
    = meanOf (W (Proc.devRef .tc main_arg0)) (srcOf (W (Proc.devRef .tc main_arg1))) (dstOf (W (Proc.devRef .tc main_arg1)))
        (degOf (dstOf (W (Proc.devRef .tc main_arg1)))) := by
  after_results_simp; rfl
theorem first_bias : after (hostOps0 (F := Ideal)) W (Proc.devRef .tc main_v23) = shapeCast _ (W (Proc.devRef .tc main_arg3)) shapeCasts_S128_S1x128 := by
  after_results_simp; rfl
theorem first_arg0 : after (hostOps0 (F := Ideal)) W (Proc.devRef .tc main_arg0) = W (Proc.devRef .tc main_arg0) := by
  after_results_simp
theorem first_arg2 : after (hostOps0 (F := Ideal)) W (Proc.devRef .tc main_arg2) = W (Proc.devRef .tc main_arg2) := by
  after_results_simp
theorem first_arg3 : after (hostOps0 (F := Ideal)) W (Proc.devRef .tc main_arg3) = W (Proc.devRef .tc main_arg3) := by
  after_results_simp
theorem first_arg4 : after (hostOps0 (F := Ideal)) W (Proc.devRef .tc main_arg4) = W (Proc.devRef .tc main_arg4) := by
  after_results_simp

end First

/-! ## The host operations between the calls -/

section Second
variable (W : Valuation τ sig (Elt Ideal))

theorem second_mean : after (hostOps1 (F := Ideal)) W (Proc.devRef .tc main_v39)
    = meanOf (W (Proc.devRef .tc main_v24)) (W (Proc.devRef .tc main_v1)) (W (Proc.devRef .tc main_v3)) (W (Proc.devRef .tc main_v7)) := by
  after_results_simp; rfl
theorem second_bias : after (hostOps1 (F := Ideal)) W (Proc.devRef .tc main_v40) = shapeCast _ (W (Proc.devRef .tc main_arg3)) shapeCasts_S128_S1x128 := by
  after_results_simp; rfl
theorem second_hidden : after (hostOps1 (F := Ideal)) W (Proc.devRef .tc main_v24) = W (Proc.devRef .tc main_v24) := by
  after_results_simp
theorem second_arg2 : after (hostOps1 (F := Ideal)) W (Proc.devRef .tc main_arg2) = W (Proc.devRef .tc main_arg2) := by
  after_results_simp
theorem second_arg4 : after (hostOps1 (F := Ideal)) W (Proc.devRef .tc main_arg4) = W (Proc.devRef .tc main_arg4) := by
  after_results_simp

end Second

end Cert.KernelIdeal.Glue

end
-- ==== Proof.Model.lean ====
import proofs.«175115_j60430189854726_1_alg».proof.Proof.Spec
import proofs.«175115_j60430189854726_1_alg».proof.Proof.KernelHost

noncomputable section

namespace Cert.Sage

open Cert.KernelIdeal Cert.KernelIdeal.Glue Idealize.ShloMosaic

/-- The first layer: the mean of the features over incoming edges combined with the features, rectified. -/
def hiddenLayer (x : (⟨S50000x128, .f32⟩ : BufTy).Contents (Elt Ideal)) (e : (⟨S2x640000, .i32⟩ : BufTy).Contents (Elt Ideal))
    (wl : (⟨S128x128, .f32⟩ : BufTy).Contents (Elt Ideal)) (bl : (⟨S128, .f32⟩ : BufTy).Contents (Elt Ideal))
    (wr : (⟨S128x128, .f32⟩ : BufTy).Contents (Elt Ideal)) : (⟨S50000x128, .f32⟩ : BufTy).Contents (Elt Ideal) :=
  combineRelu (meanOf x (srcOf e) (dstOf e) (degOf (dstOf e))) x wl wr bl

/-- The second layer over the first layer's result, with the same weights and the same edges, not rectified: the
    network's output. -/
def output (x : (⟨S50000x128, .f32⟩ : BufTy).Contents (Elt Ideal)) (e : (⟨S2x640000, .i32⟩ : BufTy).Contents (Elt Ideal))
    (wl : (⟨S128x128, .f32⟩ : BufTy).Contents (Elt Ideal)) (bl : (⟨S128, .f32⟩ : BufTy).Contents (Elt Ideal))
    (wr : (⟨S128x128, .f32⟩ : BufTy).Contents (Elt Ideal)) : (⟨S50000x128, .f32⟩ : BufTy).Contents (Elt Ideal) :=
  combine (meanOf (hiddenLayer x e wl bl wr) (srcOf e) (dstOf e) (degOf (dstOf e))) (hiddenLayer x e wl bl wr) wl wr bl

end Cert.Sage

end
-- ==== Proof.KernelValue.lean ====
import proofs.«175115_j60430189854726_1_alg».proof.Proof.KernelRun
import proofs.«175115_j60430189854726_1_alg».proof.Proof.KernelArray
import proofs.«175115_j60430189854726_1_alg».proof.Proof.Model
import Idealize.ShloMosaic.Lib.ValueLayout

set_option maxRecDepth 16384

noncomputable section

namespace Cert.KernelIdeal.Result

open Cert.KernelIdeal Cert.KernelIdeal.Gen Cert.KernelIdeal.Glue Cert.KernelIdeal.Whole Cert.Sage
open Idealize.ShloMosaic Idealize.ShloMosaic.TcCoe Idealize.ShloMosaic.ValueIdx Idealize.SL.Sem Idealize.ShloMosaic.StableHlo

/-! ## A call's whole-array function, from what its five input arrays are -/

/-- The first call's output array when it is entered at a mean `a`, features `x`, weights `wl`, `wr` and the bias as a
    one-row matrix whose row is `bl`. -/
theorem whole0_of (V : (c : Dev nD) → (b : Ref sig .tc) → Buf (Elt Ideal) ((c : Thread nD τ).loc b)) (c : Dev nD)
    (a x : S50000x128.Idx → EReal) (wl wr : S128x128.Idx → EReal) (bl : S128.Idx → EReal)
    (ha : V c main_v22 = a) (hx : V c main_arg0 = x) (hl : V c main_arg2 = wl) (hr : V c main_arg4 = wr)
    (hb : ∀ q : Fin 128, V c main_v23 (ix2 (0 : Fin 1) q) = bl (ix1 q)) :
    whole0 V c = combineRelu a x wl wr bl := by
  funext i
  unfold whole0 combineRelu combine
  rw [ha, hx, hl, hr, hb (i 1)]

/-- The second call's likewise, not rectified. -/
theorem whole1_of (V : (c : Dev nD) → (b : Ref sig .tc) → Buf (Elt Ideal) ((c : Thread nD τ).loc b)) (c : Dev nD)
    (a x : S50000x128.Idx → EReal) (wl wr : S128x128.Idx → EReal) (bl : S128.Idx → EReal)
    (ha : V c main_v39 = a) (hx : V c main_v24 = x) (hl : V c main_arg2 = wl) (hr : V c main_arg4 = wr)
    (hb : ∀ q : Fin 128, V c main_v40 (ix2 (0 : Fin 1) q) = bl (ix1 q)) :
    whole1 V c = combine a x wl wr bl := by
  funext i
  unfold whole1 combine
  rw [ha, hx, hl, hr, hb (i 1)]

/-! ## The buffers at the two calls' entries, in terms of the launch memory -/

section
variable (m : (ℓ : Loc nD τ sig) → Buf (Elt Ideal) ℓ) (ρ : Dev nD → PrngReg) (c : Dev nD)

/-- The bias vector viewed as a one-row matrix has the vector's entries in its row. -/
theorem bias_row (bl : (⟨S128, .f32⟩ : BufTy).Contents (Elt Ideal)) (q : Fin 128) :
    shapeCast S1x128 bl shapeCasts_S128_S1x128 (ix2 (0 : Fin 1) q) = bl (ix1 q) :=
  shapeCast_a_1a_apply bl shapeCasts_S128_S1x128 0 q

/-- The first call writes the first layer. -/
theorem first_layer : W2 m ρ c (Proc.devRef .tc main_v24)
    = hiddenLayer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (W2_arr m ρ c 5).trans ((array0 (V1 m ρ) c).trans (whole0_of (V1 m ρ) c _ _ _ _ _
    (first_mean (W0 m ρ c)) (first_arg0 (W0 m ρ c)) (first_arg2 (W0 m ρ c)) (first_arg4 (W0 m ρ c))
    (fun q => (congrFun (first_bias (W0 m ρ c)) (ix2 (0 : Fin 1) q)).trans (bias_row _ q))))

/-- The first call leaves the edge rows, the degree, the weights and the bias as the host operations before it set them. -/
theorem kept_src : W2 m ρ c (Proc.devRef .tc main_v1) = srcOf (m ((c.tc : Thread nD τ).loc main_arg1)) :=
  (W2_of_ne m ρ c main_v1 (by decide)).trans (first_src (W0 m ρ c))
theorem kept_dst : W2 m ρ c (Proc.devRef .tc main_v3) = dstOf (m ((c.tc : Thread nD τ).loc main_arg1)) :=
  (W2_of_ne m ρ c main_v3 (by decide)).trans (first_dst (W0 m ρ c))
theorem kept_deg : W2 m ρ c (Proc.devRef .tc main_v7) = degOf (dstOf (m ((c.tc : Thread nD τ).loc main_arg1))) :=
  (W2_of_ne m ρ c main_v7 (by decide)).trans (first_deg (W0 m ρ c))
theorem kept_bias : W2 m ρ c (Proc.devRef .tc main_arg3) = m ((c.tc : Thread nD τ).loc main_arg3) :=
  (W2_of_ne m ρ c main_arg3 (by decide)).trans (first_arg3 (W0 m ρ c))
theorem kept_wl : W2 m ρ c (Proc.devRef .tc main_arg2) = m ((c.tc : Thread nD τ).loc main_arg2) :=
  (W2_arr m ρ c 2).trans (((dat0 (V1 m ρ) c).arrAt_in 2 rfl _).trans ((A_eq0 (V1 m ρ) c 2).trans (first_arg2 (W0 m ρ c))))
theorem kept_wr : W2 m ρ c (Proc.devRef .tc main_arg4) = m ((c.tc : Thread nD τ).loc main_arg4) :=
  (W2_arr m ρ c 3).trans (((dat0 (V1 m ρ) c).arrAt_in 3 rfl _).trans ((A_eq0 (V1 m ρ) c 3).trans (first_arg4 (W0 m ρ c))))

/-- The second call's mean operand is the mean of the first layer over the same edges. -/
theorem second_entry_mean : V3 m ρ c main_v39
    = meanOf (hiddenLayer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
        (srcOf (m ((c.tc : Thread nD τ).loc main_arg1))) (dstOf (m ((c.tc : Thread nD τ).loc main_arg1)))
        (degOf (dstOf (m ((c.tc : Thread nD τ).loc main_arg1)))) := by
  refine (second_mean (W2 m ρ c)).trans ?_
  rw [first_layer, kept_src, kept_dst, kept_deg]

/-- The second call writes the network's output. -/
theorem second_layer : W4 m ρ c (Proc.devRef .tc main_v41)
    = output (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (W4_arr m ρ c 5).trans ((array1 (V3 m ρ) c).trans (whole1_of (V3 m ρ) c _ _ _ _ _
    (second_entry_mean m ρ c)
    ((second_hidden (W2 m ρ c)).trans (first_layer m ρ c))
    ((second_arg2 (W2 m ρ c)).trans (kept_wl m ρ c))
    ((second_arg4 (W2 m ρ c)).trans (kept_wr m ρ c))
    (fun q => (congrFun (second_bias (W2 m ρ c)) (ix2 (0 : Fin 1) q)).trans ((bias_row _ q).trans (congrFun (kept_bias m ρ c) (ix1 q))))))

end

/-- THE KERNEL'S RUN: every weakly fair execution terminates without a fault, the result buffer holds the network's
    output as a function of the five arguments, and the arguments are as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v41)
        = output (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (second_layer m ρ c), (h c).2⟩) (Cert.KernelIdeal.Run.run_result m ρ)

end Cert.KernelIdeal.Result

end
-- ==== Proof.RefValue.lean ====
import proofs.«175115_j60430189854726_1_alg».proof.Defs
import proofs.«175115_j60430189854726_1_alg».proof.Proof.Gen.ReferenceIdeal.Read
import proofs.«175115_j60430189854726_1_alg».proof.Proof.Model

noncomputable section

open scoped BigOperators

namespace Cert.ReferenceIdeal.RefValue

open Cert.ReferenceIdeal Cert.ReferenceIdeal.Gen Cert.ReferenceIdeal.Read Cert.Sage
open Idealize.ShloMosaic Idealize.ShloMosaic.ValueIdx

/-! ## The generated index functions, by coordinates -/

theorem l24 (i : S50000x128.Idx) (k : Fin 128) : lidx_main_v24 i k = ix2 (i 0) k :=
  funext fun a => Fin.ext (by match a with | ⟨0, _⟩ => rfl | ⟨1, _⟩ => rfl)
theorem r24 (i : S50000x128.Idx) (k : Fin 128) : idx_main_v23 (ridx_main_v24 i k) = ix2 (i 1) k :=
  funext fun a => Fin.ext (by match a with | ⟨0, _⟩ => rfl | ⟨1, _⟩ => rfl)
theorem l29 (i : S50000x128.Idx) (k : Fin 128) : lidx_main_v29 i k = ix2 (i 0) k :=
  funext fun a => Fin.ext (by match a with | ⟨0, _⟩ => rfl | ⟨1, _⟩ => rfl)
theorem r29 (i : S50000x128.Idx) (k : Fin 128) : idx_main_v28 (ridx_main_v29 i k) = ix2 (i 1) k :=
  funext fun a => Fin.ext (by match a with | ⟨0, _⟩ => rfl | ⟨1, _⟩ => rfl)
theorem b26 (i : S50000x128.Idx) : idx_main_v25 (idx_main_v26 i) = ix1 (i 1) :=
  funext fun a => Fin.ext (by match a with | ⟨0, _⟩ => rfl)
theorem l56 (i : S50000x128.Idx) (k : Fin 128) : lidx_main_v56 i k = ix2 (i 0) k :=
  funext fun a => Fin.ext (by match a with | ⟨0, _⟩ => rfl | ⟨1, _⟩ => rfl)
theorem r56 (i : S50000x128.Idx) (k : Fin 128) : idx_main_v55 (ridx_main_v56 i k) = ix2 (i 1) k :=
  funext fun a => Fin.ext (by match a with | ⟨0, _⟩ => rfl | ⟨1, _⟩ => rfl)
theorem l61 (i : S50000x128.Idx) (k : Fin 128) : lidx_main_v61 i k = ix2 (i 0) k :=
  funext fun a => Fin.ext (by match a with | ⟨0, _⟩ => rfl | ⟨1, _⟩ => rfl)
theorem r61 (i : S50000x128.Idx) (k : Fin 128) : idx_main_v60 (ridx_main_v61 i k) = ix2 (i 1) k :=
  funext fun a => Fin.ext (by match a with | ⟨0, _⟩ => rfl | ⟨1, _⟩ => rfl)
theorem b58 (i : S50000x128.Idx) : idx_main_v57 (idx_main_v58 i) = ix1 (i 1) :=
  funext fun a => Fin.ext (by match a with | ⟨0, _⟩ => rfl)

section
variable (x0 : (⟨S50000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-! ## The host operations both programs share -/

/-- The reference's first neighbour mean is the shared message-passing step of the features. -/
theorem mean1 : val_main_v22 (F := Ideal) x0 x1
    = Cert.KernelIdeal.Glue.meanOf x0 (Cert.KernelIdeal.Glue.srcOf x1) (Cert.KernelIdeal.Glue.dstOf x1)
        (Cert.KernelIdeal.Glue.degOf (Cert.KernelIdeal.Glue.dstOf x1)) := rfl

/-- Its second is the same step of the first layer's result (the degree recomputed from the same edges). -/
theorem mean2 : val_main_v54 (F := Ideal) x0 x1 x2 x3 x4
    = Cert.KernelIdeal.Glue.meanOf (val_main_v31 (F := Ideal) x0 x1 x2 x3 x4) (Cert.KernelIdeal.Glue.srcOf x1) (Cert.KernelIdeal.Glue.dstOf x1)
        (Cert.KernelIdeal.Glue.degOf (Cert.KernelIdeal.Glue.dstOf x1)) := rfl

/-! ## The two linear combines, index by index -/

/-- The reference's first layer: it adds the bias before the second product, which is the same entry. -/
theorem layer1 : val_main_v31 (F := Ideal) x0 x1 x2 x3 x4 = combineRelu (val_main_v22 (F := Ideal) x0 x1) x0 x2 x4 x3 := by
  funext i
  rw [val_main_v31_apply, val_main_v30_apply, val_main_v27_apply, val_main_v24_apply, val_main_v29_apply, val_main_v26_apply,
    val_main_v25_apply, val_main_call0_v0_apply, val_main_call0_cst_apply]
  simp only [val_main_v23_apply, val_main_v28_apply, l24, r24, l29, r29, b26, Ideal.addf_def, Ideal.maximumf_def]
  unfold combineRelu combine
  rw [← row_bias_first]
  exact congrArg (max _) Ideal.ofBits_zero_f32

/-- The reference's second layer likewise, with no rectifier. -/
theorem layer2 : val_main_v62 (F := Ideal) x0 x1 x2 x3 x4
    = combine (val_main_v54 (F := Ideal) x0 x1 x2 x3 x4) (val_main_v31 (F := Ideal) x0 x1 x2 x3 x4) x2 x4 x3 := by
  funext i
  rw [val_main_v62_apply, val_main_v59_apply, val_main_v56_apply, val_main_v61_apply, val_main_v58_apply, val_main_v57_apply]
  simp only [val_main_v55_apply, val_main_v60_apply, l56, r56, l61, r61, b58, Ideal.addf_def]
  unfold combine
  rw [← row_bias_first]
  rfl

/-- So the reference's result is the network's output. -/
theorem result : val_main_v62 (F := Ideal) x0 x1 x2 x3 x4 = output x0 x1 x2 x3 x4 := by
  unfold output hiddenLayer
  rw [layer2, mean2, layer1, mean1]

end

end Cert.ReferenceIdeal.RefValue

end
-- ==== Proof.lean ====
/-
  Two rounds of mean-aggregation message passing over a graph of 50000 nodes with 128 features and 640000 edges, with one
  pair of weight matrices and one bias used in both rounds.

  A round takes node features `h`, forms for every node the mean of `h` over its incoming edges — gather the source rows,
  add them up at the destinations, divide by the in-degree clamped below at one — and combines, per node,
      mean · Wlᵀ + h · Wrᵀ + bl,
  the first round followed by the rectifier, the second not. The result is `Cert.Sage.output`.

  The kernel program does the gather, the scatter-add and the division as host operations and the combine as a
  pallas_call over ten blocks of 5000 nodes: each block's entry (r, q) is the sum over the feature axis of the mean's row r
  against row q of Wl, plus the same for h and Wr, plus bias entry q (the narrowing of the matmul operands to sixteen
  bits is the identity on extended reals). The ten blocks tile the array, so the call's output array is the combine of the
  arrays it was entered with; the host operations before and between the calls give those arrays as the mean of the
  features, respectively of the first round's result, over the same edges.

  The reference computes the same mean with the same host operations and writes the combine as two matrix products against
  transposed weights, adding the bias BEFORE the second product where the kernel adds it AFTER: (A + b) + B against
  (A + B) + b. Addition of extended reals is commutative and associative at every value, so the two agree with no
  appeal to the inputs being finite. The in-degree, which the kernel computes once and the reference once per round, is
  one function of the edge list.
-/
import proofs.«175115_j60430189854726_1_alg».proof.Defs
import proofs.«175115_j60430189854726_1_alg».proof.Proof.Gen.Kernel
import proofs.«175115_j60430189854726_1_alg».proof.Proof.Gen.Kernel.Skeleton
import proofs.«175115_j60430189854726_1_alg».proof.Proof.Gen.Kernel.Launch
import proofs.«175115_j60430189854726_1_alg».proof.Proof.Gen.Kernel.Points
import proofs.«175115_j60430189854726_1_alg».proof.Proof.Gen.Kernel.Frame
import proofs.«175115_j60430189854726_1_alg».proof.Proof.Gen.KernelIdeal
import proofs.«175115_j60430189854726_1_alg».proof.Proof.Gen.KernelIdeal.Skeleton
import proofs.«175115_j60430189854726_1_alg».proof.Proof.Gen.KernelIdeal.Launch
import proofs.«175115_j60430189854726_1_alg».proof.Proof.Gen.KernelIdeal.Points
import proofs.«175115_j60430189854726_1_alg».proof.Proof.Gen.KernelIdeal.Frame
import proofs.«175115_j60430189854726_1_alg».proof.Proof.Gen.ReferenceIdeal
import proofs.«175115_j60430189854726_1_alg».proof.Proof.Gen.ReferenceIdeal.Run
import proofs.«175115_j60430189854726_1_alg».proof.Proof.Gen.ReferenceIdeal.Read
import proofs.«175115_j60430189854726_1_alg».proof.Proof.Gen.Pre_finite_inputs
import proofs.«175115_j60430189854726_1_alg».proof.Proof.KernelValue
import proofs.«175115_j60430189854726_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the network's output of those arguments in
    their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ((Cert.ReferenceIdeal.Read.val_main_v62_eq m' c).trans
      ((Cert.ReferenceIdeal.RefValue.result _ _ _ _ _).trans ?_)), (h c).2⟩)
    (Cert.ReferenceIdeal.Value.run (F := Ideal) m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
